-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x1024 .f32) (main_arg1 : FVec F S4x1024x1024 .f32) (main_arg2 : FVec F S4x1024 .f32) (main_arg3 : FVec F S1024x1024 .f32) (main_arg4 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S1024x1024 : Shape := ⟨2, ![1024, 1024]⟩
abbrev S1024 : Shape := ⟨1, ![1024]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1x1024 : Shape := ⟨2, ![1, 1024]⟩

abbrev nBuf : Space → Nat
  | .hbm => 13
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4x1024x1024, .f32⟩
  | .hbm, ⟨2, _⟩ => ⟨S4x1024, .f32⟩
  | .hbm, ⟨3, _⟩ => ⟨S1024x1024, .f32⟩
  | .hbm, ⟨4, _⟩ => ⟨S1024, .f32⟩
  | .hbm, ⟨5, _⟩ => ⟨S4x1024x1024, .f32⟩
  | .hbm, ⟨6, _⟩ => ⟨S4x1024x1024, .bf16⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4x1024x1024, .bf16⟩
  | .local _ .vmem, ⟨3, _⟩ => ⟨S4x1024, .f32⟩
  | .local _ .vmem, ⟨4, _⟩ => ⟨S1024x1024, .bf16⟩
  | .local _ .vmem, ⟨5, _⟩ => ⟨S1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S4x1024x1024_S4x1024x1024_0_2_1 : S4x1024x1024.Transposes [0, 2, 1] S4x1024x1024
  bitsLt_bf16_f32 : FTy.bits .bf16 < FTy.bits .f32
  transposes_S1024x1024_S1024x1024_1_0 : S1024x1024.Transposes [1, 0] S1024x1024
  bcast_S_S1024x1024 : S_.BroadcastsInDim S1024x1024 (![] : Fin 0 → Fin S1024x1024.rank)
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024x1024.size a ≤ S4x1024x1024.size a
  hwx0_1 : ∀ i : grid0.Coords, EltTy.bits .bf16 = 32 ∨ (Rect.block (s := S4x1024x1024) S4x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x1024.size a
  hwx0_2 : ∀ i : grid0.Coords, EltTy.bits .f32 = 32 ∨ (Rect.block (s := S4x1024) S4x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x1024 : Shape := ⟨3, ![1, 1024, 1024]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x1024, .f32⟩
  | .hbm, ⟨2, _⟩ => ⟨S4x1024, .f32⟩
  | .hbm, ⟨3, _⟩ => ⟨S1024x1024, .f32⟩
  | .hbm, ⟨4, _⟩ => ⟨S1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S1x1024x1024, .f32⟩
  | .hbm, ⟨14, _⟩ => ⟨S1024x1024, .f32⟩
  | .hbm, ⟨15, _⟩ => ⟨S1024x1024, .f32⟩
  | .hbm, ⟨16, _⟩ => ⟨S16384x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S1x1024x1024, .f32⟩
  | .hbm, ⟨26, _⟩ => ⟨S1024x1024, .f32⟩
  | .hbm, ⟨27, _⟩ => ⟨S1024x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S1x1024x1024, .f32⟩
  | .hbm, ⟨38, _⟩ => ⟨S1024x1024, .f32⟩
  | .hbm, ⟨39, _⟩ => ⟨S1024x1024, .f32⟩
  | .hbm, ⟨40, _⟩ => ⟨S16384x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S1x1024x1024, .f32⟩
  | .hbm, ⟨50, _⟩ => ⟨S1024x1024, .f32⟩
  | .hbm, ⟨51, _⟩ => ⟨S1024x1024, .f32⟩
  | .hbm, ⟨52, _⟩ => ⟨S16384x1024, .f32⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S1024x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_cst : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call2_cst : Ref sig .tc := ⟨.hbm, 34, rfl⟩
abbrev main_call2_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call3_cst : Ref sig .tc := ⟨.hbm, 46, rfl⟩
abbrev main_call3_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call4_cst : Ref sig .tc := ⟨.hbm, 58, rfl⟩
abbrev main_call4_v0 : Ref sig .tc := ⟨.hbm, 59, rfl⟩
abbrev main_v44 : Ref sig .tc := ⟨.hbm, 60, rfl⟩
abbrev main_v45 : Ref sig .tc := ⟨.hbm, 61, rfl⟩
abbrev main_cst_0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  slices_S4x1024x1024_S1x1024x1024_0_0_0 : S4x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S4x1024x1024_S1x1024x1024_1_0_0 : S4x1024x1024.Slices ![1, 0, 0] S1x1024x1024
  slices_S4x1024_S1x1024_1_0 : S4x1024.Slices ![1, 0] S1x1024
  slices_S4x1024x1024_S1x1024x1024_2_0_0 : S4x1024x1024.Slices ![2, 0, 0] S1x1024x1024
  slices_S4x1024_S1x1024_2_0 : S4x1024.Slices ![2, 0] S1x1024
  slices_S4x1024x1024_S1x1024x1024_3_0_0 : S4x1024x1024.Slices ![3, 0, 0] S1x1024x1024
  slices_S4x1024_S1x1024_3_0 : S4x1024.Slices ![3, 0] S1x1024
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Spec.lean ====
/-
  The function both programs compute, written one row at a time over the extended reals.

  A row u of the input (1024 entries) goes through
    * the quadratic interaction  relu (u_c · Σ_k u_k),
    * four dense layers          u ↦ relu (W_l u + b_l),   (W_l u)_c = Σ_k u_k · W_l[c, k],
    * their sum, scaled by one half, projected by a fifth matrix P and shifted by a bias d.
  The reference scales the combined row and then projects it; the kernel folds the scale into the projection's
  weights beforehand. The two arrangements agree term by term of the contraction because multiplication on the
  extended reals is commutative and associative — no distributivity, so no finiteness, is used.
  The literal one half is kept as its word (the same word on both sides); only the zero word is read as 0.
-/
import Idealize.ShloMosaic.PureOps.Ideal
import Idealize.ShloMosaic.Lib.ValueIdx

noncomputable section

open scoped BigOperators

namespace Cert.Spec

open Idealize.ShloMosaic Idealize.ShloMosaic.ValueIdx

/-- The scale one half, as the word both programs print for it. -/
def half : EReal := Ideal.ofBits .f32 0x3F000000#32

/-- The rectifier: the larger of a value and zero. -/
def relu (a : EReal) : EReal := max a 0

/-- A matrix applied to a row: entry c of W u is the contraction of u with row c of W. -/
def lin (W : Fin 1024 → Fin 1024 → EReal) (u : Fin 1024 → EReal) (c : Fin 1024) : EReal :=
  ∑ k : Fin 1024, u k * W c k

/-- One dense layer: relu (W u + b). -/
def dense (W : Fin 1024 → Fin 1024 → EReal) (b : Fin 1024 → EReal) (u : Fin 1024 → EReal) (c : Fin 1024) : EReal :=
  relu (lin W u c + b c)

/-- The quadratic interaction of a row: relu (u_c · Σ_k u_k). -/
def inter (u : Fin 1024 → EReal) (c : Fin 1024) : EReal :=
  relu (u c * ∑ k : Fin 1024, u k)

/-- The first three dense layers. -/
def hidden3 (W : Fin 4 → Fin 1024 → Fin 1024 → EReal) (b : Fin 4 → Fin 1024 → EReal) (u : Fin 1024 → EReal) :
    Fin 1024 → EReal :=
  dense (W 2) (b 2) (dense (W 1) (b 1) (dense (W 0) (b 0) u))

/-- All four dense layers. -/
def hidden (W : Fin 4 → Fin 1024 → Fin 1024 → EReal) (b : Fin 4 → Fin 1024 → EReal) (u : Fin 1024 → EReal) :
    Fin 1024 → EReal :=
  dense (W 3) (b 3) (hidden3 W b u)

/-- The row the projection is applied to: the last hidden row plus the interaction. -/
def comb (W : Fin 4 → Fin 1024 → Fin 1024 → EReal) (b : Fin 4 → Fin 1024 → EReal) (u : Fin 1024 → EReal)
    (k : Fin 1024) : EReal :=
  hidden W b u k + inter u k

/-- The reference's arrangement: scale the combined row by one half, project by P, add the bias d. -/
def outRow (W : Fin 4 → Fin 1024 → Fin 1024 → EReal) (b : Fin 4 → Fin 1024 → EReal)
    (P : Fin 1024 → Fin 1024 → EReal) (d : Fin 1024 → EReal) (u : Fin 1024 → EReal) (c : Fin 1024) : EReal :=
  (∑ k : Fin 1024, (comb W b u k * half) * P c k) + d c

/-- The kernel's arrangement: project by weights that already carry the scale. -/
def outRowFolded (W : Fin 4 → Fin 1024 → Fin 1024 → EReal) (b : Fin 4 → Fin 1024 → EReal)
    (P' : Fin 1024 → Fin 1024 → EReal) (d : Fin 1024 → EReal) (u : Fin 1024 → EReal) (c : Fin 1024) : EReal :=
  (∑ k : Fin 1024, comb W b u k * P' c k) + d c

/-- THE LAW that joins the two sides: with P' = P · ½ entry by entry the two arrangements are one function,
    since (a · ½) · p = a · (p · ½) on the extended reals. -/
theorem outRowFolded_eq (W : Fin 4 → Fin 1024 → Fin 1024 → EReal) (b : Fin 4 → Fin 1024 → EReal)
    (P : Fin 1024 → Fin 1024 → EReal) (d : Fin 1024 → EReal) (u : Fin 1024 → EReal) (c : Fin 1024) :
    outRowFolded W b (fun c k => P c k * half) d u c = outRow W b P d u c := by
  unfold outRowFolded outRow
  refine congrArg (· + d c) (Finset.sum_congr rfl fun k _ => ?_)
  rw [mul_assoc, mul_comm half (P c k)]

/-! ## The whole array -/

/-- The result array as ONE function of the five argument arrays: entry (r, c) is the reference's arrangement
    applied to row r of x, with layer l's matrix Ws[l], its bias bs[l], the projection Wo and the bias bo. -/
def G (X : (⟨2, ![16384, 1024]⟩ : Shape).Idx → EReal) (Ws : (⟨3, ![4, 1024, 1024]⟩ : Shape).Idx → EReal)
    (Bs : (⟨2, ![4, 1024]⟩ : Shape).Idx → EReal) (Wo : (⟨2, ![1024, 1024]⟩ : Shape).Idx → EReal)
    (Bo : (⟨1, ![1024]⟩ : Shape).Idx → EReal) : (⟨2, ![16384, 1024]⟩ : Shape).Idx → EReal :=
  fun i => outRow (fun l c k => Ws (ix3 l c k)) (fun l c => Bs (ix2 l c)) (fun c k => Wo (ix2 c k))
    (fun c => Bo (ix1 c)) (fun k => X (ix2 (i 0) k)) (i 1)

/-- The array at an index written by its coordinates. -/
theorem G_apply (X : (⟨2, ![16384, 1024]⟩ : Shape).Idx → EReal) (Ws : (⟨3, ![4, 1024, 1024]⟩ : Shape).Idx → EReal)
    (Bs : (⟨2, ![4, 1024]⟩ : Shape).Idx → EReal) (Wo : (⟨2, ![1024, 1024]⟩ : Shape).Idx → EReal)
    (Bo : (⟨1, ![1024]⟩ : Shape).Idx → EReal) (r : Fin 16384) (c : Fin 1024) :
    G X Ws Bs Wo Bo (ix2 r c) = outRow (fun l c k => Ws (ix3 l c k)) (fun l c => Bs (ix2 l c))
      (fun c k => Wo (ix2 c k)) (fun c => Bo (ix1 c)) (fun k => X (ix2 r k)) c := rfl

end Cert.Spec

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelRow.lean ====
/-
  The kernel's body read one entry at a time.

  The body loads a block x of 512 input rows, the four weight slabs and biases, the projection and the output
  bias, and stores one block. Every operation in it is either pointwise or acts within a row: the lane sum, the
  five matrix products (rows of the left operand against columns of the right), the bias broadcasts. So entry
  (p, q) of the stored block depends on the input block only through its row p, and it is Spec.lean's row
  function of that row: the interaction relu (x_pq · Σ_k x_pk), four times relu (h W + b), the sum of the two,
  and the last product with the projection as loaded plus the output bias.
  A matrix product into a zero accumulator is the plain sum Σ_k h[p,k] · w[k,q]; the change of float format
  before each product is the identity on the extended reals.
-/
import proofs.«156408_j66468913873627_2_alg».proof.Proof.Gen.KernelIdeal.Frame
import proofs.«156408_j66468913873627_2_alg».proof.Proof.Spec
import proofs.«156408_j66468913873627_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Spec

/-! ## The matrix product at an entry -/

/-- The body's one contraction pattern: rows of a [512, 1024] operand against columns of a [1024, 1024] one. -/
abbrev D : DotDims S512x1024 S1024x1024 S512x1024 := dot_S512x1024_S1024x1024_S512x1024_1_0_0_1_n_n

theorem lhs_row (i : S512x1024.Idx) (κ : D.contr.Idx) : (D.lhsIdx i κ 0).val = (i 0).val := by
  unfold DotDims.lhsIdx
  rw [dif_neg (show ¬(0 : Fin S512x1024.rank) ∈ D.lhsBatch by decide),
    dif_pos (show (0 : Fin S512x1024.rank) ∈ D.lhsNonContracting by decide)]
  rfl
theorem lhs_contr (i : S512x1024.Idx) (κ : D.contr.Idx) : (D.lhsIdx i κ 1).val = (κ ⟨0, by decide⟩).val :=
  D.lhsIdx_val_of_single rfl i κ
theorem rhs_contr (i : S512x1024.Idx) (κ : D.contr.Idx) : (D.rhsIdx i κ 0).val = (κ ⟨0, by decide⟩).val :=
  D.rhsIdx_val_of_single rfl i κ
theorem rhs_col (i : S512x1024.Idx) (κ : D.contr.Idx) : (D.rhsIdx i κ 1).val = (i 1).val := by
  unfold DotDims.rhsIdx
  rw [dif_neg (show ¬(1 : Fin S1024x1024.rank) ∈ D.rhsBatch by decide),
    dif_pos (show (1 : Fin S1024x1024.rank) ∈ D.rhsNonContracting by decide)]
  rfl

/-- A matrix product into the zero accumulator, at entry (p, q), is Σ_k h[p, k] · w[k, q]. -/
theorem matmul_pq (h : FVec Ideal S512x1024 .bf16) (w : FVec Ideal S1024x1024 .bf16) (p : Fin 512) (q : Fin 1024) :
    matmul D none h w (constant (F := Ideal) S512x1024 .f32 0x00000000#32) (ix2 p q)
      = ∑ k : Fin 1024, h (ix2 p k) * w (ix2 k q) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 1024 rfl rfl).symm k) = ix2 k q := funext fun a => Fin.ext (by
    match a with
    | ⟨0, _⟩ => exact (rhs_contr _ _).trans hk
    | ⟨1, _⟩ => exact rhs_col _ _)
  rw [el, er]

/-! ## The body's recurring pieces -/

/-- A block h against one loaded weight slab [1, 1024, 1024]: the slab's unit axis dropped, h's format changed. -/
def kmm (h : FVec Ideal S512x1024 .f32) (w : FVec Ideal S1x1024x1024 .bf16) : FVec Ideal S512x1024 .f32 :=
  matmul D none (truncf .bf16 h bitsLt_bf16_f32) (shapeCast S1024x1024 w shapeCasts_S1x1024x1024_S1024x1024)
    (constant S512x1024 .f32 0x00000000#32)

/-- A bias vector added along every row, then the rectifier. -/
def kact (z : FVec Ideal S512x1024 .f32) (b : FVec Ideal S1024 .f32) : FVec Ideal S512x1024 .f32 :=
  maximumf (addf z (broadcastTo S512x1024 (shapeCast S1x1024 b shapeCasts_S1024_S1x1024) broadcasts_S1x1024_S512x1024))
    (broadcast S512x1024 (Scalar.ofBits .f32 0x00000000#32))

/-- The bias broadcast at (p, q) is the bias at q. -/
theorem bias_pq (b : FVec Ideal S1024 .f32) (p : Fin 512) (q : Fin 1024) :
    broadcastTo S512x1024 (shapeCast S1x1024 b shapeCasts_S1024_S1x1024) broadcasts_S1x1024_S512x1024 (ix2 p q)
      = b (ix1 q) := by
  rw [broadcastTo_1b_ab_apply, shapeCast_a_1a_apply]

theorem kmm_apply (h : FVec Ideal S512x1024 .f32) (w : FVec Ideal S1x1024x1024 .bf16) (p : Fin 512) (q : Fin 1024) :
    kmm h w (ix2 p q) = lin (fun c k => w (ix3 (0 : Fin 1) k c)) (fun k => h (ix2 p k)) q := by
  unfold kmm lin
  rw [matmul_pq]
  refine Finset.sum_congr rfl fun k _ => ?_
  rw [shapeCast_1ab_ab_apply]
  rfl

theorem kact_apply (z : FVec Ideal S512x1024 .f32) (b : FVec Ideal S1024 .f32) (p : Fin 512) (q : Fin 1024) :
    kact z b (ix2 p q) = relu (z (ix2 p q) + b (ix1 q)) := by
  unfold kact relu
  rw [maximumf_apply, addf_apply, bias_pq, broadcast_apply]
  show max _ (Ideal.ofBits .f32 0x00000000#32) = _
  rw [Ideal.ofBits_zero_f32]

/-- One dense layer of the body at (p, q): Spec's dense applied to row p. -/
theorem layer_apply (h : FVec Ideal S512x1024 .f32) (w : FVec Ideal S1x1024x1024 .bf16) (b : FVec Ideal S1024 .f32)
    (p : Fin 512) (q : Fin 1024) :
    kact (kmm h w) b (ix2 p q)
      = dense (fun c k => w (ix3 (0 : Fin 1) k c)) (fun c => b (ix1 c)) (fun k => h (ix2 p k)) q := by
  rw [kact_apply, kmm_apply]
  rfl

/-! ## Loads through the body's rectangles -/

theorem hz2 : (![0, 0] : Fin 2 → Nat) = fun _ => 0 := funext fun a => by fin_cases a <;> rfl
theorem hz1 : (![0] : Fin 1 → Nat) = fun _ => 0 := funext fun a => by fin_cases a <;> rfl

/-- Slab o of the stacked weights: the load at offset (o, 0, 0) reads the stack at first coordinate o. -/
theorem ld_slab (x1 : FVec Ideal S4x1024x1024 .bf16) (o : Nat) (ho : o < 4)
    (inb : ∀ a, (![o, 0, 0] : Fin 3 → Nat) a + S1x1024x1024.size a ≤ S4x1024x1024.size a)
    (u : Fin 1) (k c : Fin 1024) :
    View.ld (Val := Elt Ideal) (e' := .bf16) x1 (Rect.unit (s := S4x1024x1024) ![o, 0, 0] S1x1024x1024.size inb) (ix3 u k c)
      = x1 (ix3 (⟨o, ho⟩ : Fin 4) k c) := by
  show x1 _ = x1 _
  refine congrArg x1 (funext fun a => Fin.ext ?_)
  match a with
  | ⟨0, _⟩ => show o + 1 * u.val = o; omega
  | ⟨1, _⟩ => show 0 + 1 * k.val = k.val; omega
  | ⟨2, _⟩ => show 0 + 1 * c.val = c.val; omega

/-- Row o of the stacked biases: the load at offset (o, 0) reads the stack at first coordinate o. -/
theorem ld_brow (x2 : FVec Ideal S4x1024 .f32) (o : Nat) (ho : o < 4)
    (inb : ∀ a, (![o, 0] : Fin 2 → Nat) a + S1x1024.size a ≤ S4x1024.size a) (u : Fin 1) (c : Fin 1024) :
    View.ld (Val := Elt Ideal) (e' := .f32) x2 (Rect.unit (s := S4x1024) ![o, 0] S1x1024.size inb) (ix2 u c)
      = x2 (ix2 (⟨o, ho⟩ : Fin 4) c) := by
  show x2 _ = x2 _
  refine congrArg x2 (funext fun a => Fin.ext ?_)
  match a with
  | ⟨0, _⟩ => show o + 1 * u.val = o; omega
  | ⟨1, _⟩ => show 0 + 1 * c.val = c.val; omega

/-! ## The four payloads at an entry -/

/-- The lane sum of a block: one value per row. -/
def rowsum (x : FVec Ideal S512x1024 .f32) : FVec Ideal S512 .f32 :=
  multiReduction .add [1] S512 x 0x00000000#32 reduces_S512x1024_S512 (.inl rfl) rfl

theorem rowsum_apply (x : FVec Ideal S512x1024 .f32) (p : Fin 512) :
    rowsum x (ix1 p) = ∑ k : Fin 1024, x (ix2 p k) := by
  unfold rowsum
  refine (Ideal.multiReduction_add_single x 0x00000000#32 reduces_S512x1024_S512 (.inl rfl) rfl (ix1 p)).trans ?_
  refine Finset.sum_congr rfl fun k _ => congrArg x (funext fun a => Fin.ext ?_)
  match a with
  | ⟨0, _⟩ => rfl
  | ⟨1, _⟩ => rfl

theorem pay2_eq (x : FVec Ideal S512x1024 .f32) :
    k0_pay2 (F := Ideal) x = maximumf (mulf x (broadcastTo S512x1024 (shapeCast S512x1 (rowsum x) shapeCasts_S512_S512x1)
      broadcasts_S512x1_S512x1024)) (broadcast S512x1024 (Scalar.ofBits .f32 0x00000000#32)) := rfl

/-- The interaction payload at (p, q): relu (x_pq · Σ_k x_pk). -/
theorem pay2_apply (x : FVec Ideal S512x1024 .f32) (p : Fin 512) (q : Fin 1024) :
    k0_pay2 (F := Ideal) x (ix2 p q) = inter (fun k => x (ix2 p k)) q := by
  unfold inter relu
  rw [pay2_eq, maximumf_apply, mulf_apply, Cert.LibKeepdims.broadcastTo_a1_ab_apply,
    Cert.LibKeepdims.shapeCast_a_a1_apply, rowsum_apply, broadcast_apply]
  show max _ (Ideal.ofBits .f32 0x00000000#32) = _
  rw [Ideal.ofBits_zero_f32]

/-- A loaded bias row [1, 1024] as a vector, at q. -/
theorem pay3_apply (v : FVec Ideal S1x1024 .f32) (q : Fin 1024) : k0_pay3 (F := Ideal) v (ix1 q) = v (ix2 (0 : Fin 1) q) := by
  unfold k0_pay3
  exact shapeCast_1a_a_apply v shapeCasts_S1x1024_S1024 q

theorem pay4_eq (v0 : FVec Ideal S512x1024 .f32) (v7 : FVec Ideal S1x1024x1024 .bf16) (v9 : FVec Ideal S1x1024 .f32)
    (v18 : FVec Ideal S1x1024x1024 .bf16) (v20 : FVec Ideal S1x1024 .f32) (v29 : FVec Ideal S1x1024x1024 .bf16) :
    k0_pay4 (F := Ideal) v0 v7 v9 v18 v20 v29
      = kmm (kact (kmm (kact (kmm v0 v7) (shapeCast S1024 v9 shapeCasts_S1x1024_S1024)) v18)
          (shapeCast S1024 v20 shapeCasts_S1x1024_S1024)) v29 := rfl

/-- Two dense layers and the third layer's product, at (p, q). -/
theorem pay4_apply (v0 : FVec Ideal S512x1024 .f32) (v7 : FVec Ideal S1x1024x1024 .bf16) (v9 : FVec Ideal S1x1024 .f32)
    (v18 : FVec Ideal S1x1024x1024 .bf16) (v20 : FVec Ideal S1x1024 .f32) (v29 : FVec Ideal S1x1024x1024 .bf16)
    (p : Fin 512) (q : Fin 1024) :
    k0_pay4 (F := Ideal) v0 v7 v9 v18 v20 v29 (ix2 p q)
      = lin (fun c k => v29 (ix3 (0 : Fin 1) k c))
          (dense (fun c k => v18 (ix3 (0 : Fin 1) k c)) (fun c => v20 (ix2 (0 : Fin 1) c))
            (dense (fun c k => v7 (ix3 (0 : Fin 1) k c)) (fun c => v9 (ix2 (0 : Fin 1) c)) (fun k => v0 (ix2 p k)))) q := by
  rw [pay4_eq, kmm_apply]
  simp only [layer_apply, shapeCast_1a_a_apply]

theorem pay1_eq (v6 : FVec Ideal S512x1024 .f32) (v32 : FVec Ideal S1024 .f32) (v34 : FVec Ideal S512x1024 .f32)
    (v40 : FVec Ideal S1x1024x1024 .bf16) (v42 : FVec Ideal S1x1024 .f32) (v53 : FVec Ideal S1024x1024 .bf16)
    (v56 : FVec Ideal S1024 .f32) :
    k0_pay1 (F := Ideal) v6 v32 v34 v40 v42 v53 v56
      = addf (matmul D none (truncf .bf16 (addf (kact (kmm (kact v34 v32) v40) (shapeCast S1024 v42 shapeCasts_S1x1024_S1024)) v6)
            bitsLt_bf16_f32) (shapeCast S1024x1024 v53 shapeCasts_S1024x1024_S1024x1024)
            (constant S512x1024 .f32 0x00000000#32))
          (broadcastTo S512x1024 (shapeCast S1x1024 v56 shapeCasts_S1024_S1x1024) broadcasts_S1x1024_S512x1024) := rfl

/-- The stored payload at (p, q): the third layer finished, the fourth layer, the interaction added, the product with
    the projection as loaded, the output bias. -/
theorem pay1_apply (v6 : FVec Ideal S512x1024 .f32) (v32 : FVec Ideal S1024 .f32) (v34 : FVec Ideal S512x1024 .f32)
    (v40 : FVec Ideal S1x1024x1024 .bf16) (v42 : FVec Ideal S1x1024 .f32) (v53 : FVec Ideal S1024x1024 .bf16)
    (v56 : FVec Ideal S1024 .f32) (p : Fin 512) (q : Fin 1024) :
    k0_pay1 (F := Ideal) v6 v32 v34 v40 v42 v53 v56 (ix2 p q)
      = (∑ k : Fin 1024, (dense (fun c k => v40 (ix3 (0 : Fin 1) k c)) (fun c => v42 (ix2 (0 : Fin 1) c))
            (fun k' => relu (v34 (ix2 p k') + v32 (ix1 k'))) k + v6 (ix2 p k)) * v53 (ix2 k q)) + v56 (ix1 q) := by
  rw [pay1_eq, addf_apply, matmul_pq, bias_pq]
  simp only [truncf_apply, addf_apply, shapeCast_self, layer_apply, shapeCast_1a_a_apply]
  simp only [kact_apply]

/-! ## The stored block at an entry -/

theorem out_eq (x0 : FVec Ideal S512x1024 .f32) (x1 : FVec Ideal S4x1024x1024 .bf16) (x2 : FVec Ideal S4x1024 .f32)
    (x3 : FVec Ideal S1024x1024 .bf16) (x4 : FVec Ideal S1024 .f32) :
    out0_5 (F := Ideal) x0 x1 x2 x3 x4
      = k0_pay1 (F := Ideal) (k0_pay2 x0) (k0_pay3 (View.ld (Val := Elt Ideal) x2 r0_6))
          (k0_pay4 x0 (View.ld (Val := Elt Ideal) x1 r0_1) (View.ld (Val := Elt Ideal) x2 r0_2) (View.ld (Val := Elt Ideal) x1 r0_3)
            (View.ld (Val := Elt Ideal) x2 r0_4) (View.ld (Val := Elt Ideal) x1 r0_5))
          (View.ld (Val := Elt Ideal) x1 r0_7) (View.ld (Val := Elt Ideal) x2 r0_8) x3 x4 := by
  unfold out0_5
  rw [View.canon_unit_zero hz2]
  simp only [View.ld_unit_zero (S := S512x1024) hz2, View.ld_unit_zero (S := S1024x1024) hz2,
    View.ld_unit_zero (S := S1024) hz1]

/-- ENTRY (p, q) OF THE STORED BLOCK is the kernel's arrangement of Spec.lean applied to row p of the input block,
    with layer l's matrix read transposed off slab l of the stacked weights (the slabs arrive transposed), its bias
    row l of the stacked biases, the projection read transposed off the loaded matrix, and the output bias. -/
theorem out_apply (x0 : FVec Ideal S512x1024 .f32) (x1 : FVec Ideal S4x1024x1024 .bf16) (x2 : FVec Ideal S4x1024 .f32)
    (x3 : FVec Ideal S1024x1024 .bf16) (x4 : FVec Ideal S1024 .f32) (p : Fin 512) (q : Fin 1024) :
    out0_5 (F := Ideal) x0 x1 x2 x3 x4 (ix2 p q)
      = outRowFolded (fun l c k => x1 (ix3 l k c)) (fun l c => x2 (ix2 l c)) (fun c k => x3 (ix2 k c))
          (fun c => x4 (ix1 c)) (fun k => x0 (ix2 p k)) q := by
  rw [out_eq, pay1_apply]
  simp only [pay4_apply, pay3_apply, pay2_apply,
    ld_slab x1 0 (by decide), ld_slab x1 1 (by decide), ld_slab x1 2 (by decide), ld_slab x1 3 (by decide),
    ld_brow x2 0 (by decide), ld_brow x2 1 (by decide), ld_brow x2 2 (by decide), ld_brow x2 3 (by decide)]
  rfl

end Cert.KernelIdeal.Row

end
-- ==== Proof.KernelBlock.lean ====
/-
  From the stored blocks to the result array.

  The grid has 32 points; point t stages rows 512 t … 512 t + 511 of x, the whole of every weight array, and writes
  back rows 512 t … 512 t + 511 of the result. Two of the weight arrays are prepared on the host before the call:
  the stack Ws transposed within each slab, and the projection Wo transposed and scaled by one half (the changes of
  float format are the identity). So entry (p, q) of the block point t writes back is the kernel's arrangement of
  Spec.lean applied to row 512 t + p of x with the projection weights Wo · ½ — by the one law of Spec.lean, entry
  (512 t + p, q) of the array G. The 32 blocks tile the array, so the array ends holding G.
-/
import proofs.«156408_j66468913873627_2_alg».proof.Proof.Gen.KernelIdeal.Value
import proofs.«156408_j66468913873627_2_alg».proof.Proof.KernelRow
import Idealize.ShloMosaic.Lib.Pipeline.Value
import Idealize.ShloMosaic.Lib.StableHlo.Run
import Idealize.ShloMosaic.Lib.ValueLayout
import Idealize.ShloMosaic.Lib.Tactic

noncomputable section

open scoped BigOperators

namespace Cert.KernelIdeal.Block

open Cert.KernelIdeal Cert.KernelIdeal.Gen Cert.KernelIdeal.Value Cert.KernelIdeal.Row
  Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

/-- The five argument arrays as launched, on core c. -/
abbrev aX (c : Dev nD) : FVec Ideal S16384x1024 .f32 := m ((c : Thread nD τ).loc main_arg0)
abbrev aWs (c : Dev nD) : FVec Ideal S4x1024x1024 .f32 := m ((c : Thread nD τ).loc main_arg1)
abbrev aBs (c : Dev nD) : FVec Ideal S4x1024 .f32 := m ((c : Thread nD τ).loc main_arg2)
abbrev aWo (c : Dev nD) : FVec Ideal S1024x1024 .f32 := m ((c : Thread nD τ).loc main_arg3)
abbrev aBo (c : Dev nD) : FVec Ideal S1024 .f32 := m ((c : Thread nD τ).loc main_arg4)

/-- The result array as the function G of the five argument arrays as launched. -/
abbrev Gm (c : Dev nD) : Buf (Elt Ideal) ((c : Thread nD τ).loc main_v6) :=
  G (aX m c) (aWs m c) (aBs m c) (aWo m c) (aBo m c)

/-! ## The two arrays the host prepares -/

/-- The weight stack as the region finds it: entry (l, k, q) is Ws[l, q, k]. -/
theorem ws_apply (c : Dev nD) (l : Fin 4) (k q : Fin 1024) :
    (V m c main_v1 : S4x1024x1024.Idx → EReal) (ix3 l k q)
      = aWs m c (ix3 l q k) := by
  have e : (V m c main_v1 : S4x1024x1024.Idx → EReal)
      = truncf (F := Ideal) .bf16 (transpose S4x1024x1024 [0, 2, 1]
          (aWs m c) transposes_S4x1024x1024_S4x1024x1024_0_2_1)
          bitsLt_bf16_f32 := by
    dsimp only [Gen.V, Gen.hostOps0]; after_results
  rw [e]
  exact transpose_ix3_021_apply _ _ l k q

/-- The projection as the region finds it: entry (k, q) is Wo[q, k] · ½. -/
theorem wo_apply (c : Dev nD) (k q : Fin 1024) :
    (V m c main_v5 : S1024x1024.Idx → EReal) (ix2 k q)
      = aWo m c (ix2 q k) * half := by
  have e : (V m c main_v5 : S1024x1024.Idx → EReal)
      = truncf (F := Ideal) .bf16 (mulf (transpose S1024x1024 [1, 0]
          (aWo m c) transposes_S1024x1024_S1024x1024_1_0)
          (broadcastInDim S1024x1024 ![] bcast_S_S1024x1024 (constant (F := Ideal) S_ .f32 0x3F000000#32)))
          bitsLt_bf16_f32 := by
    dsimp only [Gen.V, Gen.hostOps0]; after_results
  rw [e, truncf_apply, mulf_apply, transpose_ix2_apply,
    broadcastInDim_apply _ bcast_S_S1024x1024 _ (ix2 k q) ix0 (fun a => a.elim0)]
  rfl

/-! ## Where each window's block sits -/

/-- The printed index maps, decided over the 32 points: the input and the output move one block of rows per point;
    every weight window stays at block zero. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The input block at point t is rows 512 t … 512 t + 511 of x. -/
theorem xblk_apply (c : Dev nD) (t : Fin cfg0.N) (p : Fin 512) (k : Fin 1024) (r : Fin 16384)
    (hr : r.val = t.val * 512 + p.val) :
    (iblk m c 0 t : Vec Ideal S512x1024 .f32) (ix2 p k)
      = aX m c (ix2 r k) := by
  obtain ⟨e0, e1, -⟩ := idx_facts t
  unfold iblk
  rw [View.read_apply]
  show V m c main_arg0 _ = _
  rw [V_main_arg0]
  refine congrArg (aX m c) (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The weight-stack block at any point is the whole prepared stack. -/
theorem wblk_apply (c : Dev nD) (t : Fin cfg0.N) (l : Fin 4) (k q : Fin 1024) :
    (iblk m c 1 t : Vec Ideal S4x1024x1024 .bf16) (ix3 l k q)
      = aWs m c (ix3 l q k) := by
  obtain ⟨-, -, e0, e1, e2, -⟩ := idx_facts t
  unfold iblk
  rw [View.read_apply]
  show V m c main_v1 _ = _
  refine Eq.trans (congrArg (V m c main_v1 : S4x1024x1024.Idx → EReal) (funext fun a => Fin.ext ?_)) (ws_apply m c l k q)
  match a with
  | ⟨0, _⟩ => show win0_1.index t (0 : Fin 3) * 4 + 1 * l.val = l.val; rw [e0]; omega
  | ⟨1, _⟩ => show win0_1.index t (1 : Fin 3) * 1024 + 1 * k.val = k.val; rw [e1]; omega
  | ⟨2, _⟩ => show win0_1.index t (2 : Fin 3) * 1024 + 1 * q.val = q.val; rw [e2]; omega

/-- The bias-stack block at any point is the whole stack. -/
theorem bblk_apply (c : Dev nD) (t : Fin cfg0.N) (l : Fin 4) (q : Fin 1024) :
    (iblk m c 2 t : Vec Ideal S4x1024 .f32) (ix2 l q)
      = aBs m c (ix2 l q) := by
  obtain ⟨-, -, -, -, -, e0, e1, -⟩ := idx_facts t
  unfold iblk
  rw [View.read_apply]
  show V m c main_arg2 _ = _
  rw [V_main_arg2]
  refine congrArg (aBs m c) (funext fun a => Fin.ext ?_)
  match a with
  | ⟨0, _⟩ => show win0_2.index t (0 : Fin 2) * 4 + 1 * l.val = l.val; rw [e0]; omega
  | ⟨1, _⟩ => show win0_2.index t (1 : Fin 2) * 1024 + 1 * q.val = q.val; rw [e1]; omega

/-- The projection block at any point is the whole prepared projection. -/
theorem pblk_apply (c : Dev nD) (t : Fin cfg0.N) (k q : Fin 1024) :
    (iblk m c 3 t : Vec Ideal S1024x1024 .bf16) (ix2 k q)
      = aWo m c (ix2 q k) * half := by
  obtain ⟨-, -, -, -, -, -, -, e0, e1, -⟩ := idx_facts t
  unfold iblk
  rw [View.read_apply]
  show V m c main_v5 _ = _
  refine Eq.trans (congrArg (V m c main_v5 : S1024x1024.Idx → EReal) (funext fun a => Fin.ext ?_)) (wo_apply m c k q)
  match a with
  | ⟨0, _⟩ => show win0_3.index t (0 : Fin 2) * 1024 + 1 * k.val = k.val; rw [e0]; omega
  | ⟨1, _⟩ => show win0_3.index t (1 : Fin 2) * 1024 + 1 * q.val = q.val; rw [e1]; omega

/-- The output-bias block at any point is the whole vector. -/
theorem dblk_apply (c : Dev nD) (t : Fin cfg0.N) (q : Fin 1024) :
    (iblk m c 4 t : Vec Ideal S1024 .f32) (ix1 q) = aBo m c (ix1 q) := by
  obtain ⟨-, -, -, -, -, -, -, -, -, e0, -⟩ := idx_facts t
  unfold iblk
  rw [View.read_apply]
  show V m c main_arg4 _ = _
  rw [V_main_arg4]
  refine congrArg (aBo m c) (funext fun a => Fin.ext ?_)
  match a with
  | ⟨0, _⟩ => show win0_4.index t (0 : Fin 1) * 1024 + 1 * q.val = q.val; rw [e0]; omega

/-! ## What point t writes back -/

/-- WHAT POINT t WRITES BACK is block t of G. -/
theorem flushed_eq (c : Dev nD) (t : Fin cfg0.N) :
    (dats m 0 c).flushed 5 t = ((cfg0.win 5).blk t).view.read (Elt Ideal) (Gm m c) := by
  rw [flushed5]
  show out0_5 (iblk m c 0 t) (iblk m c 1 t) (iblk m c 2 t) (iblk m c 3 t) (iblk m c 4 t) = _
  funext j
  obtain ⟨p, q, rfl⟩ : ∃ (p : Fin 512) (q : Fin 1024), j = ix2 p q := ⟨j 0, j 1, eq_ix2 j⟩
  have hN : cfg0.N = 32 := N_0
  have ht : t.val < 32 := hN ▸ t.isLt
  have hp : p.val < 512 := p.isLt
  let r : Fin 16384 := ⟨t.val * 512 + p.val, by omega⟩
  obtain ⟨-, -, -, -, -, -, -, -, -, -, e0, e1⟩ := idx_facts t
  have hemb : ((cfg0.win 5).blk t).view.emb (ix2 p q) = ix2 r q := by
    funext a; apply Fin.ext
    match a with
    | ⟨0, _⟩ => show win0_5.index t (0 : Fin 2) * 512 + 1 * p.val = t.val * 512 + p.val; rw [e0]; omega
    | ⟨1, _⟩ => show win0_5.index t (1 : Fin 2) * 1024 + 1 * q.val = q.val; rw [e1]; omega
  rw [View.read_apply]
  show _ = G (aX m c) (aWs m c) (aBs m c) (aWo m c) (aBo m c) (((cfg0.win 5).blk t).view.emb (ix2 p q))
  rw [hemb, G_apply, ← outRowFolded_eq,
    out_apply (iblk m c 0 t) (iblk m c 1 t) (iblk m c 2 t) (iblk m c 3 t) (iblk m c 4 t) p q]
  have h0 : (fun k => (iblk m c 0 t : Vec Ideal S512x1024 .f32) (ix2 p k))
      = fun k => aX m c (ix2 r k) :=
    funext fun k => xblk_apply m c t p k r rfl
  have h1 : (fun (l : Fin 4) (c' k : Fin 1024) => (iblk m c 1 t : Vec Ideal S4x1024x1024 .bf16) (ix3 l k c'))
      = fun l c' k => aWs m c (ix3 l c' k) :=
    funext fun l => funext fun c' => funext fun k => wblk_apply m c t l k c'
  have h2 : (fun (l : Fin 4) (c' : Fin 1024) => (iblk m c 2 t : Vec Ideal S4x1024 .f32) (ix2 l c'))
      = fun l c' => aBs m c (ix2 l c') :=
    funext fun l => funext fun c' => bblk_apply m c t l c'
  have h3 : (fun (c' k : Fin 1024) => (iblk m c 3 t : Vec Ideal S1024x1024 .bf16) (ix2 k c'))
      = fun c' k => aWo m c (ix2 c' k) * half :=
    funext fun c' => funext fun k => pblk_apply m c t k c'
  have h4 : (fun (c' : Fin 1024) => (iblk m c 4 t : Vec Ideal S1024 .f32) (ix1 c'))
      = fun c' => aBo m c (ix1 c') :=
    funext fun c' => dblk_apply m c t c'
  rw [h0, h1, h2, h3, h4]

/-! ## The blocks tile the array -/

/-- An index of the array is in point t's block iff each coordinate is in the block's range on its axis. -/
theorem mem_blk (t : Fin cfg0.N) (i : S16384x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v6).slice (win0_5.rect t)).set ↔ _
  rw [View.set_slice_whole, Rect.mem_set_unit]
  exact Iff.rfl

/-- Row r of the array lies in the block of point r / 512. -/
theorem cover (i : S16384x1024.Idx) :
    ∃ t : Fin cfg0.N, (cfg0.win 5).flush t = true ∧ i ∈ ((cfg0.win 5).blk t).view.set := by
  have h0 : (i 0).val < 16384 := (i 0).isLt
  have h1 : (i 1).val < 1024 := (i 1).isLt
  have hN : cfg0.N = 32 := N_0
  have hlt : (i 0).val / 512 < cfg0.N := by rw [hN]; omega
  obtain ⟨-, -, -, -, -, -, -, -, -, -, e0, e1⟩ := idx_facts ⟨(i 0).val / 512, hlt⟩
  refine ⟨⟨(i 0).val / 512, hlt⟩, flush0_5 _, ?_⟩
  rw [mem_blk]
  intro a
  match a with
  | ⟨0, _⟩ =>
    show win0_5.index ⟨(i 0).val / 512, hlt⟩ (0 : Fin 2) * 512 ≤ (i 0).val
      ∧ (i 0).val < win0_5.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_5.index ⟨(i 0).val / 512, hlt⟩ (1 : Fin 2) * 1024 ≤ (i 1).val
      ∧ (i 1).val < win0_5.index ⟨(i 0).val / 512, hlt⟩ (1 : Fin 2) * 1024 + 1024
    rw [e1]
    omega

/-- THE ARRAY after the run is G of the arguments as launched. -/
theorem final (c : Dev nD) : (dats m 0 c).arrAt 5 cfg0.N = Gm m c :=
  (dats m 0 c).arrAt_eq_of_cover 5 (Gm m c) (fun t _ => flushed_eq m c t) cover

/-- The kernel's run, read: the result array at G of the arguments, the arguments unchanged. -/
theorem run : θ_run defs (onTc (τ := τ) (main (F := Ideal))) ⟨m, fun _ => 0, ρ⟩ fun r => ∀ c : Dev nD,
      r.2.mem ((c : Thread nD τ).loc main_v6) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Block

end
-- ==== Proof.RefRow.lean ====
/-
  The reference read one entry at a time.

  The reference is a chain of whole-array host operations: a row sum broadcast back over the columns, five
  products with transposed weight matrices (each of the first four sliced off a stack), bias broadcasts over the
  rows, rectifiers, one scaling by one half. Each stage, read at entry (r, c), involves row r of its left operand
  only, so entry (r, c) of the result is Spec.lean's row function of row r of the input: that is the array G.
  One lemma reads a dense layer (product, bias, rectifier) at an entry over abstract operands; the four layers are
  its instances. A float sum on the host is its initial value (zero) plus the sum; a host product is the plain sum
  Σ_k l[r, k] · w[k, c].
-/
import proofs.«156408_j66468913873627_2_alg».proof.Proof.Gen.ReferenceIdeal.Read
import proofs.«156408_j66468913873627_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Row

open Cert.ReferenceIdeal Cert.ReferenceIdeal.Gen Cert.ReferenceIdeal.Read Idealize.ShloMosaic
  Idealize.ShloMosaic.ValueIdx Cert.Spec

/-! ## The host product at an entry -/

/-- The reference's one contraction pattern: rows of a [16384, 1024] operand against columns of a [1024, 1024] one. -/
abbrev DR : DotDims S16384x1024 S1024x1024 S16384x1024 := dot_S16384x1024_S1024x1024_S16384x1024_1_0_0_1_n_n

/-- A host product at entry (r, c) is Σ_k l[r, k] · w[k, c]. -/
theorem dot_rc (l : FVec Ideal S16384x1024 .f32) (w : FVec Ideal S1024x1024 .f32) (r : Fin 16384) (c : Fin 1024) :
    Host.dotGeneral DR none l w (ix2 r c) = ∑ k : Fin 1024, l (ix2 r k) * w (ix2 k c) := by
  simp only [Host.dotGeneral]
  rw [Ideal.dotGeneral_apply, ← Equiv.sum_comp (contrEquiv1 DR 1024 rfl rfl).symm]
  refine Finset.sum_congr rfl fun k _ => ?_
  have hk := contrEquiv1_symm_val DR 1024 rfl rfl k
  have el : DR.lhsIdx (ix2 r c) ((contrEquiv1 DR 1024 rfl rfl).symm k) = ix2 r k := funext fun a => Fin.ext (by
    match a with
    | ⟨0, _⟩ => exact lhs_main_v8_0 _ _
    | ⟨1, _⟩ => exact (lhs_main_v8_1 _ _).trans hk)
  have er : DR.rhsIdx (ix2 r c) ((contrEquiv1 DR 1024 rfl rfl).symm k) = ix2 k c := funext fun a => Fin.ext (by
    match a with
    | ⟨0, _⟩ => exact (rhs_main_v8_0 _ _).trans hk
    | ⟨1, _⟩ => exact rhs_main_v8_1 _ _)
  rw [el, er]

/-! ## One dense layer over abstract operands -/

/-- A dense layer of the reference at entry (r, c): if the right operand at (k, c) is W[c, k], the broadcast bias at
    (r, c) is b[c] and the rectifier's floor is zero everywhere, then relu (l · Wt + bias) at (r, c) is Spec's dense
    layer of row r of l. -/
theorem layer_rc (l : FVec Ideal S16384x1024 .f32) (Wt : FVec Ideal S1024x1024 .f32) (bB z : FVec Ideal S16384x1024 .f32)
    (W : Fin 1024 → Fin 1024 → EReal) (b : Fin 1024 → EReal)
    (hW : ∀ k c, Wt (ix2 k c) = W c k) (hb : ∀ r c, bB (ix2 r c) = b c) (hz : ∀ i, z i = 0)
    (r : Fin 16384) (c : Fin 1024) :
    maximumf (addf (Host.dotGeneral DR none l Wt) bB) z (ix2 r c) = dense W b (fun k => l (ix2 r k)) c := by
  unfold dense relu lin
  rw [maximumf_apply, addf_apply, dot_rc, hb, hz]
  simp only [hW]

/-! ## The stacked weights and biases as the reference prepares them -/

/-- Slab o of the weight stack sliced off, its unit axis dropped, transposed: entry (k, c) is Ws[o, c, k]. -/
theorem weight_kc (Ws : FVec Ideal S4x1024x1024 .f32) (o : Nat) (ho : o < 4)
    (hs : S4x1024x1024.Slices ![o, 0, 0] S1x1024x1024) (k c : Fin 1024) :
    transpose S1024x1024 [1, 0] (shapeCast S1024x1024 (extractStridedSlice S1x1024x1024 ![o, 0, 0] Ws hs)
        shapeCasts_S1x1024x1024_S1024x1024) transposes_S1024x1024_S1024x1024_1_0 (ix2 k c)
      = Ws (ix3 (⟨o, ho⟩ : Fin 4) c k) := by
  rw [transpose_ix2_apply, shapeCast_1ab_ab_apply]
  refine extractStridedSlice_apply _ _ _ _ _ fun a => ?_
  match a with
  | ⟨0, _⟩ => rfl
  | ⟨1, _⟩ => exact (Nat.zero_add _).symm
  | ⟨2, _⟩ => exact (Nat.zero_add _).symm

/-- Row o of the bias stack sliced off, recast to a vector, broadcast over the rows: entry (r, c) is bs[o, c]. -/
theorem bias_rc (Bs : FVec Ideal S4x1024 .f32) (o : Nat) (ho : o < 4) (hs : S4x1024.Slices ![o, 0] S1x1024)
    (r : Fin 16384) (c : Fin 1024) :
    broadcastInDim S16384x1024 ![0, 1] bcast_S1x1024_S16384x1024_0_1 (broadcastInDim S1x1024 ![1] bcast_S1024_S1x1024_1
        (shapeCast S1024 (extractStridedSlice S1x1024 ![o, 0] Bs hs) shapeCasts_S1x1024_S1024)) (ix2 r c)
      = Bs (ix2 (⟨o, ho⟩ : Fin 4) c) := by
  rw [broadcastInDim_apply _ bcast_S1x1024_S16384x1024_0_1 _ (ix2 r c) (ix2 (0 : Fin 1) c) (fun a => by
        match a with
        | ⟨0, _⟩ => show 0 = if (1 : Nat) = 1 then 0 else r.val; rw [if_pos rfl]
        | ⟨1, _⟩ => show c.val = if (1024 : Nat) = 1 then 0 else c.val; rw [if_neg (by decide)]),
    broadcastInDim_apply _ bcast_S1024_S1x1024_1 _ (ix2 (0 : Fin 1) c) (ix1 c) (fun a => by
        match a with
        | ⟨0, _⟩ => show c.val = if (1024 : Nat) = 1 then 0 else c.val; rw [if_neg (by decide)]),
    shapeCast_1a_a_apply]
  exact slice2_axis0_apply o Bs hs (0 : Fin 1) c ⟨o, ho⟩ rfl

/-- The output bias broadcast over the rows: entry (r, c) is bo[c]. -/
theorem outbias_rc (Bo : FVec Ideal S1024 .f32) (r : Fin 16384) (c : Fin 1024) :
    val_main_v51 (F := Ideal) Bo (ix2 r c) = Bo (ix1 c) := by
  rw [val_main_v51_apply, val_main_v50_apply]
  exact congrArg Bo (funext fun a => Fin.ext (by match a with | ⟨0, _⟩ => rfl))

/-- The projection transposed: entry (k, c) is Wo[c, k]. -/
theorem proj_kc (Wo : FVec Ideal S1024x1024 .f32) (k c : Fin 1024) :
    val_main_v48 (F := Ideal) Wo (ix2 k c) = Wo (ix2 c k) := by
  unfold val_main_v48
  exact transpose_ix2_apply Wo transposes_S1024x1024_S1024x1024_1_0 k c

/-! ## The zero and one-half splats -/

theorem zero0 (i : S16384x1024.Idx) : val_main_call0_v0 (F := Ideal) i = 0 := by
  rw [val_main_call0_v0_apply]; exact Ideal.ofBits_zero_f32
theorem zero1 (i : S16384x1024.Idx) : val_main_call1_v0 (F := Ideal) i = 0 := by
  rw [val_main_call1_v0_apply]; exact Ideal.ofBits_zero_f32
theorem zero2 (i : S16384x1024.Idx) : val_main_call2_v0 (F := Ideal) i = 0 := by
  rw [val_main_call2_v0_apply]; exact Ideal.ofBits_zero_f32
theorem zero3 (i : S16384x1024.Idx) : val_main_call3_v0 (F := Ideal) i = 0 := by
  rw [val_main_call3_v0_apply]; exact Ideal.ofBits_zero_f32
theorem zero4 (i : S16384x1024.Idx) : val_main_call4_v0 (F := Ideal) i = 0 := by
  rw [val_main_call4_v0_apply]; exact Ideal.ofBits_zero_f32
theorem half_splat (i : S16384x1024.Idx) : val_main_v46 (F := Ideal) i = half := by
  rw [val_main_v46_apply]; rfl

/-! ## The stages at an entry -/

/-- The interaction stage at (r, c): relu (x_rc · Σ_k x_rk). -/
theorem inter_rc (X : FVec Ideal S16384x1024 .f32) (r : Fin 16384) (c : Fin 1024) :
    val_main_v4 (F := Ideal) X (ix2 r c) = inter (fun k => X (ix2 r k)) c := by
  unfold inter relu
  rw [val_main_v4_apply, val_main_v3_apply, val_main_v2_apply, val_main_v1_apply, val_main_v0_apply, zero0]
  have e : ∀ k, idx_main_v0 (idx_main_v1 (idx_main_v2 (ix2 r c))) k = ix2 r k := fun k =>
    funext fun a => Fin.ext (by match a with | ⟨0, _⟩ => rfl | ⟨1, _⟩ => rfl)
  simp only [e]
  show max (X (ix2 r c) * (Ideal.ofBits .f32 0x00000000#32 + _)) 0 = _
  rw [Ideal.ofBits_zero_f32, zero_add]

/-- The layers' matrices and biases as row-level functions of the stacks. -/
abbrev Wr (Ws : FVec Ideal S4x1024x1024 .f32) : Fin 4 → Fin 1024 → Fin 1024 → EReal := fun l c k => Ws (ix3 l c k)
abbrev br (Bs : FVec Ideal S4x1024 .f32) : Fin 4 → Fin 1024 → EReal := fun l c => Bs (ix2 l c)

/-- Layer 0's matrix and bias as the reference prepares them, in the row-level form. -/
theorem w0_kc (Ws : FVec Ideal S4x1024x1024 .f32) (k c : Fin 1024) : val_main_v7 (F := Ideal) Ws (ix2 k c) = Wr Ws 0 c k := by
  unfold val_main_v7 val_main_v6 val_main_v5
  exact weight_kc Ws 0 (by decide) slices_S4x1024x1024_S1x1024x1024_0_0_0 k c
theorem b0_rc (Bs : FVec Ideal S4x1024 .f32) (r : Fin 16384) (c : Fin 1024) : val_main_v12 (F := Ideal) Bs (ix2 r c) = br Bs 0 c := by
  unfold val_main_v12 val_main_v11 val_main_v10 val_main_v9
  exact bias_rc Bs 0 (by decide) slices_S4x1024_S1x1024_0_0 r c
/-- Layer 1's. -/
theorem w1_kc (Ws : FVec Ideal S4x1024x1024 .f32) (k c : Fin 1024) : val_main_v17 (F := Ideal) Ws (ix2 k c) = Wr Ws 1 c k := by
  unfold val_main_v17 val_main_v16 val_main_v15
  exact weight_kc Ws 1 (by decide) slices_S4x1024x1024_S1x1024x1024_1_0_0 k c
theorem b1_rc (Bs : FVec Ideal S4x1024 .f32) (r : Fin 16384) (c : Fin 1024) : val_main_v22 (F := Ideal) Bs (ix2 r c) = br Bs 1 c := by
  unfold val_main_v22 val_main_v21 val_main_v20 val_main_v19
  exact bias_rc Bs 1 (by decide) slices_S4x1024_S1x1024_1_0 r c
/-- Layer 2's. -/
theorem w2_kc (Ws : FVec Ideal S4x1024x1024 .f32) (k c : Fin 1024) : val_main_v27 (F := Ideal) Ws (ix2 k c) = Wr Ws 2 c k := by
  unfold val_main_v27 val_main_v26 val_main_v25
  exact weight_kc Ws 2 (by decide) slices_S4x1024x1024_S1x1024x1024_2_0_0 k c
theorem b2_rc (Bs : FVec Ideal S4x1024 .f32) (r : Fin 16384) (c : Fin 1024) : val_main_v32 (F := Ideal) Bs (ix2 r c) = br Bs 2 c := by
  unfold val_main_v32 val_main_v31 val_main_v30 val_main_v29
  exact bias_rc Bs 2 (by decide) slices_S4x1024_S1x1024_2_0 r c
/-- Layer 3's. -/
theorem w3_kc (Ws : FVec Ideal S4x1024x1024 .f32) (k c : Fin 1024) : val_main_v37 (F := Ideal) Ws (ix2 k c) = Wr Ws 3 c k := by
  unfold val_main_v37 val_main_v36 val_main_v35
  exact weight_kc Ws 3 (by decide) slices_S4x1024x1024_S1x1024x1024_3_0_0 k c
theorem b3_rc (Bs : FVec Ideal S4x1024 .f32) (r : Fin 16384) (c : Fin 1024) : val_main_v42 (F := Ideal) Bs (ix2 r c) = br Bs 3 c := by
  unfold val_main_v42 val_main_v41 val_main_v40 val_main_v39
  exact bias_rc Bs 3 (by decide) slices_S4x1024_S1x1024_3_0 r c

/-- Each layer's stage is a product, a bias and a rectifier of the stage before it: the first layer's, of x; -/
theorem v14_eq (X : FVec Ideal S16384x1024 .f32) (Ws : FVec Ideal S4x1024x1024 .f32) (Bs : FVec Ideal S4x1024 .f32) :
    val_main_v14 (F := Ideal) X Ws Bs
      = maximumf (F := Ideal) (addf (Host.dotGeneral (φ₁ := .f32) (φ₂ := .f32) DR none X (val_main_v7 (F := Ideal) Ws))
          (val_main_v12 (F := Ideal) Bs)) (val_main_call1_v0 (F := Ideal)) := rfl
/-- the second layer's, of the first; -/
theorem v24_eq (X : FVec Ideal S16384x1024 .f32) (Ws : FVec Ideal S4x1024x1024 .f32) (Bs : FVec Ideal S4x1024 .f32) :
    val_main_v24 (F := Ideal) X Ws Bs
      = maximumf (F := Ideal) (addf (Host.dotGeneral (φ₁ := .f32) (φ₂ := .f32) DR none (val_main_v14 (F := Ideal) X Ws Bs)
          (val_main_v17 (F := Ideal) Ws)) (val_main_v22 (F := Ideal) Bs)) (val_main_call2_v0 (F := Ideal)) := rfl
/-- the third layer's, of the second; -/
theorem v34_eq (X : FVec Ideal S16384x1024 .f32) (Ws : FVec Ideal S4x1024x1024 .f32) (Bs : FVec Ideal S4x1024 .f32) :
    val_main_v34 (F := Ideal) X Ws Bs
      = maximumf (F := Ideal) (addf (Host.dotGeneral (φ₁ := .f32) (φ₂ := .f32) DR none (val_main_v24 (F := Ideal) X Ws Bs)
          (val_main_v27 (F := Ideal) Ws)) (val_main_v32 (F := Ideal) Bs)) (val_main_call3_v0 (F := Ideal)) := rfl
/-- the fourth layer's, of the third. -/
theorem v44_eq (X : FVec Ideal S16384x1024 .f32) (Ws : FVec Ideal S4x1024x1024 .f32) (Bs : FVec Ideal S4x1024 .f32) :
    val_main_v44 (F := Ideal) X Ws Bs
      = maximumf (F := Ideal) (addf (Host.dotGeneral (φ₁ := .f32) (φ₂ := .f32) DR none (val_main_v34 (F := Ideal) X Ws Bs)
          (val_main_v37 (F := Ideal) Ws)) (val_main_v42 (F := Ideal) Bs)) (val_main_call4_v0 (F := Ideal)) := rfl

theorem layer0_rc (X : FVec Ideal S16384x1024 .f32) (Ws : FVec Ideal S4x1024x1024 .f32) (Bs : FVec Ideal S4x1024 .f32)
    (r : Fin 16384) (c : Fin 1024) :
    val_main_v14 (F := Ideal) X Ws Bs (ix2 r c) = dense (Wr Ws 0) (br Bs 0) (fun k => X (ix2 r k)) c := by
  rw [v14_eq]
  exact layer_rc X (val_main_v7 (F := Ideal) Ws) (val_main_v12 (F := Ideal) Bs) (val_main_call1_v0 (F := Ideal))
    (Wr Ws 0) (br Bs 0) (w0_kc Ws) (b0_rc Bs) zero1 r c

theorem layer1_rc (X : FVec Ideal S16384x1024 .f32) (Ws : FVec Ideal S4x1024x1024 .f32) (Bs : FVec Ideal S4x1024 .f32)
    (r : Fin 16384) (c : Fin 1024) :
    val_main_v24 (F := Ideal) X Ws Bs (ix2 r c)
      = dense (Wr Ws 1) (br Bs 1) (dense (Wr Ws 0) (br Bs 0) (fun k => X (ix2 r k))) c := by
  rw [v24_eq]
  refine (layer_rc (val_main_v14 (F := Ideal) X Ws Bs) (val_main_v17 (F := Ideal) Ws) (val_main_v22 (F := Ideal) Bs)
    (val_main_call2_v0 (F := Ideal)) (Wr Ws 1) (br Bs 1) (w1_kc Ws) (b1_rc Bs) zero2 r c).trans ?_
  simp only [layer0_rc]

theorem layer2_rc (X : FVec Ideal S16384x1024 .f32) (Ws : FVec Ideal S4x1024x1024 .f32) (Bs : FVec Ideal S4x1024 .f32)
    (r : Fin 16384) (c : Fin 1024) :
    val_main_v34 (F := Ideal) X Ws Bs (ix2 r c) = hidden3 (Wr Ws) (br Bs) (fun k => X (ix2 r k)) c := by
  rw [v34_eq]
  refine (layer_rc (val_main_v24 (F := Ideal) X Ws Bs) (val_main_v27 (F := Ideal) Ws) (val_main_v32 (F := Ideal) Bs)
    (val_main_call3_v0 (F := Ideal)) (Wr Ws 2) (br Bs 2) (w2_kc Ws) (b2_rc Bs) zero3 r c).trans ?_
  simp only [layer1_rc]
  rfl

theorem layer3_rc (X : FVec Ideal S16384x1024 .f32) (Ws : FVec Ideal S4x1024x1024 .f32) (Bs : FVec Ideal S4x1024 .f32)
    (r : Fin 16384) (c : Fin 1024) :
    val_main_v44 (F := Ideal) X Ws Bs (ix2 r c) = hidden (Wr Ws) (br Bs) (fun k => X (ix2 r k)) c := by
  rw [v44_eq]
  refine (layer_rc (val_main_v34 (F := Ideal) X Ws Bs) (val_main_v37 (F := Ideal) Ws) (val_main_v42 (F := Ideal) Bs)
    (val_main_call4_v0 (F := Ideal)) (Wr Ws 3) (br Bs 3) (w3_kc Ws) (b3_rc Bs) zero4 r c).trans ?_
  simp only [layer2_rc]
  rfl

/-! ## The reference is G -/

/-- THE REFERENCE'S RESULT, as a function of the five arguments, is the array G of Spec.lean. -/
theorem ref_eq_G (X : FVec Ideal S16384x1024 .f32) (Ws : FVec Ideal S4x1024x1024 .f32) (Bs : FVec Ideal S4x1024 .f32)
    (Wo : FVec Ideal S1024x1024 .f32) (Bo : FVec Ideal S1024 .f32) :
    val_main_v52 (F := Ideal) X Ws Bs Wo Bo = G X Ws Bs Wo Bo := by
  funext i
  obtain ⟨r, c, rfl⟩ : ∃ (r : Fin 16384) (c : Fin 1024), i = ix2 r c := ⟨i 0, i 1, eq_ix2 i⟩
  rw [G_apply]
  unfold outRow comb
  rw [val_main_v52_apply, outbias_rc]
  refine congrArg (· + Bo (ix1 c)) ?_
  show val_main_v49 (F := Ideal) X Ws Bs Wo (ix2 r c) = _
  refine (dot_rc (val_main_v47 (F := Ideal) X Ws Bs) (val_main_v48 (F := Ideal) Wo) r c).trans ?_
  refine Finset.sum_congr rfl fun k _ => ?_
  rw [proj_kc, val_main_v47_apply, val_main_v45_apply, half_splat, layer3_rc, inter_rc]
  rfl

end Cert.ReferenceIdeal.Row

end
-- ==== Proof.lean ====
/-
  The certificate of a fused DeepFM-style block against its jnp reference.

  Both programs take x [16384, 1024], four stacked dense layers (Ws, bs), a projection Wo and a bias bo, and
  compute, row by row of x:  the interaction relu (x · rowsum x), four layers h ↦ relu (h Wᵀ + b) from h = x, and
  ((h + interaction) · ½) Woᵀ + bo.  The kernel tiles the rows in 32 blocks of 512, keeps every weight whole, takes
  Ws already transposed and Wo already transposed and multiplied by ½ on the host, and rounds to bf16 before each
  product.  Over the extended reals the roundings are the identity and a product into a zero accumulator is a plain
  sum, so the two programs differ only in where the factor ½ sits inside the last contraction:
  (a · ½) · w = a · (w · ½), by commutativity and associativity alone.  No finiteness is used: the precondition is
  never opened.

  Spec.lean states the function G and that law; KernelRow.lean reads the kernel's stored block at an entry;
  KernelBlock.lean tiles the blocks into the array; RefRow.lean reads the reference at an entry.  Here the five
  claims are assembled: the two kernel frames are the generated ones, the reference's frame is its generated run
  with the result dropped, nothing was rewritten on the way to the idealized kernel, and both idealized programs end
  with the result array at G of the arguments.
-/
import proofs.«156408_j66468913873627_2_alg».proof.Defs
import proofs.«156408_j66468913873627_2_alg».proof.Proof.Gen.Kernel
import proofs.«156408_j66468913873627_2_alg».proof.Proof.Gen.Kernel.Skeleton
import proofs.«156408_j66468913873627_2_alg».proof.Proof.Gen.Kernel.Launch
import proofs.«156408_j66468913873627_2_alg».proof.Proof.Gen.Kernel.Points
import proofs.«156408_j66468913873627_2_alg».proof.Proof.Gen.Kernel.Frame
import proofs.«156408_j66468913873627_2_alg».proof.Proof.Gen.KernelIdeal
import proofs.«156408_j66468913873627_2_alg».proof.Proof.Gen.KernelIdeal.Skeleton
import proofs.«156408_j66468913873627_2_alg».proof.Proof.Gen.KernelIdeal.Launch
import proofs.«156408_j66468913873627_2_alg».proof.Proof.Gen.KernelIdeal.Points
import proofs.«156408_j66468913873627_2_alg».proof.Proof.Gen.KernelIdeal.Frame
import proofs.«156408_j66468913873627_2_alg».proof.Proof.Gen.ReferenceIdeal
import proofs.«156408_j66468913873627_2_alg».proof.Proof.Gen.Pre_finite_inputs
import proofs.«156408_j66468913873627_2_alg».proof.Proof.Gen.KernelIdeal.Value
import proofs.«156408_j66468913873627_2_alg».proof.Proof.Gen.ReferenceIdeal.Run
import proofs.«156408_j66468913873627_2_alg».proof.Proof.Gen.ReferenceIdeal.Read
import proofs.«156408_j66468913873627_2_alg».proof.Proof.KernelBlock
import proofs.«156408_j66468913873627_2_alg».proof.Proof.RefRow
import Idealize.ShloMosaic.Adequacy
import Idealize.ShloMosaic.Init

noncomputable section

namespace Cert.Proof

open Idealize.ShloMosaic Idealize.SL.Sem Cert.Kernel

/-- The word-level kernel terminates without a fault and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-- From memories agreeing on the five arguments both idealized programs end with the result array at G of the
    arguments: the kernel by its 32 blocks (KernelBlock.lean), the reference stage by stage (RefRow.lean). -/
theorem algebraic : Cert.algebraic_KernelIdeal_ReferenceIdeal := by
  intro m ρ m' ρ' _ hagree
  refine ⟨fun c => Cert.KernelIdeal.Block.Gm m c, Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.Row.ref_eq_G,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
